-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S256 : Shape := ⟨1, ![256]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel

variable [Facts]

def fn {F : FTy → Type} [FloatOps F] (main_arg0 : FVec F S131072x512 .f32) (main_arg1 : FVec F S131072x512 .f32) (main_arg2 : IVec S256 32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S131072x512 .f32 := Host.absf main_arg1
  let main_cst_0 : FVec F S_ .f32 := constant S_ .f32 0x7F800000#32
  let main_v5 : FVec F S131072x512 .f32 := broadcastInDim S131072x512 ![] bcast_S_S131072x512 main_cst_0
  let main_v6 : IVec S131072x512 1 := cmpf .olt main_v4 main_v5
  let main_c_1 : IVec S_ 1 := constantI S_ 1 1#1
  let main_v7 : IVec S_ 1 := (fun x v => Host.reduce IntOp.andi x v reducesTo_S131072x512_S_d0_1 h_S_) main_v6 main_c_1
  let main_v8 : IVec S_ 1 := andi main_v3 main_v7
  main_v8
-- ==== Kernel.lean ====
abbrev S131072x512 : Shape := ⟨2, ![131072, 512]⟩
abbrev S256 : Shape := ⟨1, ![256]⟩
abbrev S2x1x1 : Shape := ⟨3, ![2, 1, 1]⟩
abbrev S4096x512 : Shape := ⟨2, ![4096, 512]⟩
abbrev S1x1x1 : Shape := ⟨3, ![1, 1, 1]⟩
abbrev S1x1 : Shape := ⟨2, ![1, 1]⟩
abbrev S4096 : Shape := ⟨1, ![4096]⟩
abbrev S4096x1 : Shape := ⟨2, ![4096, 1]⟩
abbrev S1x4096x1 : Shape := ⟨3, ![1, 4096, 1]⟩
abbrev S1 : Shape := ⟨1, ![1]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S131072x512, .f32⟩
  | .hbm, ⟨1, _⟩ => ⟨S131072x512, .f32⟩
  | .hbm, ⟨2, _⟩ => ⟨S256, .i32⟩
  | .hbm, ⟨3, _⟩ => ⟨S2x1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S4096x512, .f32⟩
  | .local _ .vmem, ⟨1, _⟩ => ⟨S4096x512, .f32⟩
  | .local _ .vmem, ⟨2, _⟩ => ⟨S4096x512, .f32⟩
  | .local _ .vmem, ⟨3, _⟩ => ⟨S4096x512, .f32⟩
  | .local _ .vmem, ⟨4, _⟩ => ⟨S1x1x1, .f32⟩
  | .local _ .vmem, ⟨5, _⟩ => ⟨S1x1x1, .f32⟩
  | .local _ .vmem, ⟨6, _⟩ => ⟨S1x1, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v44 : BitVec 1 := Scalar.cmpi .eq arg1 c15_i32
  let v45 : BitVec 32 := Scalar.extui v44
  let c0_i32_16 : BitVec 32 := 0#32
  let v46 : BitVec 1 := Scalar.cmpi .ne v45 c0_i32_16
  v46

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x512_S4096x512_0_0 : ∀ a, (![0, 0] : Fin 2 → Nat) a + S4096x512.size a ≤ S4096x512.size a
  h_S4096x512 : 0 < S4096x512.numel
  reduces_S4096x512_S4096 : S4096x512.Reduces [1] S4096
  shapeCasts_S4096_S4096x1 : S4096.ShapeCasts S4096x1
  shapeCasts_S4096x1_S1x4096x1 : S4096x1.ShapeCasts S1x4096x1
  reduces_S1x4096x1_S1 : S1x4096x1.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S131072x512.size a
  hwx0_1 : ∀ i : grid0.Coords, EltTy.bits .f32 = 32 ∨ (Rect.block (s := S131072x512) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_arg1) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S131072x512 : Shape := ⟨2, ![131072, 512]⟩
abbrev S256 : Shape := ⟨1, ![256]⟩
abbrev S_ : Shape := ⟨0, ![]⟩
abbrev S131072 : Shape := ⟨1, ![131072]⟩
abbrev S131072x1 : Shape := ⟨2, ![131072, 1]⟩

abbrev nBuf : Space → Nat
  | .hbm => 34
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S131072x512, .f32⟩
  | .hbm, ⟨2, _⟩ => ⟨S256, .i32⟩
  | .hbm, ⟨3, _⟩ => ⟨S131072x512, .f32⟩
  | .hbm, ⟨4, _⟩ => ⟨S_, .f32⟩
  | .hbm, ⟨5, _⟩ => ⟨S131072, .f32⟩
  | .hbm, ⟨6, _⟩ => ⟨S131072x1, .f32⟩
  | .hbm, ⟨7, _⟩ => ⟨S131072x512, .f32⟩
  | .hbm, ⟨8, _⟩ => ⟨S131072x512, .f32⟩
  | .hbm, ⟨9, _⟩ => ⟨S131072x512, .f32⟩
  | .hbm, ⟨10, _⟩ => ⟨S131072x512, .f32⟩
  | .hbm, ⟨11, _⟩ => ⟨S_, .f32⟩
  | .hbm, ⟨12, _⟩ => ⟨S131072, .f32⟩
  | .hbm, ⟨13, _⟩ => ⟨S131072x1, .f32⟩
  | .hbm, ⟨14, _⟩ => ⟨S131072x1, .f32⟩
  | .hbm, ⟨15, _⟩ => ⟨S_, .f32⟩
  | .hbm, ⟨16, _⟩ => ⟨S131072x1, .f32⟩
  | .hbm, ⟨17, _⟩ => ⟨S131072x1, .f32⟩
  | .hbm, ⟨18, _⟩ => ⟨S131072x512, .f32⟩
  | .hbm, ⟨19, _⟩ => ⟨S131072x512, .f32⟩
  | .hbm, ⟨20, _⟩ => ⟨S131072x512, .f32⟩
  | .hbm, ⟨21, _⟩ => ⟨S_, .f32⟩
  | .hbm, ⟨22, _⟩ => ⟨S131072, .f32⟩
  | .hbm, ⟨23, _⟩ => ⟨S_, .f32⟩
  | .hbm, ⟨24, _⟩ => ⟨S131072, .f32⟩
  | .hbm, ⟨25, _⟩ => ⟨S131072, .f32⟩
  | .hbm, ⟨26, _⟩ => ⟨S131072, .f32⟩
  | .hbm, ⟨27, _⟩ => ⟨S_, .f32⟩
  | .hbm, ⟨28, _⟩ => ⟨S131072, .f32⟩
  | .hbm, ⟨29, _⟩ => ⟨S131072, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  reducesTo_S131072x512_S131072_d1 : S131072x512.ReducesTo [1] S131072
  h_S_ : 0 < S_.numel
  bcast_S131072_S131072x1_0 : S131072.BroadcastsInDim S131072x1 (![0] : Fin 1 → Fin S131072x1.rank)
  bcast_S131072x1_S131072x512_0_1 : S131072x1.BroadcastsInDim S131072x512 (![0, 1] : Fin 2 → Fin S131072x512.rank)
  bcast_S_S131072x1 : S_.BroadcastsInDim S131072x1 (![] : Fin 0 → Fin S131072x1.rank)
  bcast_S_S131072 : S_.BroadcastsInDim S131072 (![] : Fin 0 → Fin S131072.rank)
  reducesTo_S131072_S_d0 : S131072.ReducesTo [0] S_

variable [Facts₀]

class Facts : Prop extends Facts₀ where

variable [Facts]
-- ==== Proof.KernelCases.lean ====
/-
  What the kernel body leaves behind at a grid point, case by case.

  The body keeps one running sum in a 1x1 scratch cell. At the first block of a shard it stores zero
  there, reads it back and stores zero plus this block's loss sum; at every other block it stores
  the cell's previous contents plus this block's loss sum; at the last block of a shard it also
  copies the cell, reshaped to 1x1x1, into the output block. Each of the three facts below reads
  the one store that covers the cell (or the output block) back as its payload.
-/
import proofs.«166818_j77464030151303_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

/-- The all-zero offsets of a whole-buffer access, rank 2 and rank 3. -/
theorem offsets2 : (![0, 0] : Fin 2 → Nat) = fun _ => 0 := funext fun a => by fin_cases a <;> rfl
theorem offsets3 : (![0, 0, 0] : Fin 3 → Nat) = fun _ => 0 := funext fun a => by fin_cases a <;> rfl

/-- First block of a shard: the cell ends at zero plus the block's loss sum. -/
theorem cell_first (c : Dev nD) (i : grid0.Coords) (a2 : Memref sig .tc .vmem S4096x512 .f32) (h2 : a2.IsWhole)
    (a3 : Memref sig .tc .vmem S4096x512 .f32) (h3 : a3.IsWhole) (a4 : Memref sig .tc .vmem S1x1x1 .f32) (h4 : a4.IsWhole)
    (a5 : Memref sig .tc .vmem S1x1 .f32) (h5 : a5.IsWhole) (hc0 : cond0_0 i) (hc1 : ¬cond0_1 i)
    (x0 x1 : Vec F S4096x512 .f32) :
    sout0_A_0 c i a2 h2 a3 h3 a4 h4 a5 h5 hc0 hc1 x0 x1 = k0_pay1 (k0_pay3 (F := F)) (k0_pay4 x0 x1) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) offsets2, View.readCov_unit_zero (S := S1x1) _ offsets2]
  simp only [View.readAt_eq_ld, h2.read_unread, h3.read_unread, View.ld_unit_zero (S := S4096x512) offsets2]

/-- A middle block: the cell ends at its previous contents plus the block's loss sum. -/
theorem cell_middle (c : Dev nD) (i : grid0.Coords) (a2 : Memref sig .tc .vmem S4096x512 .f32) (h2 : a2.IsWhole)
    (a3 : Memref sig .tc .vmem S4096x512 .f32) (h3 : a3.IsWhole) (a4 : Memref sig .tc .vmem S1x1x1 .f32) (h4 : a4.IsWhole)
    (a5 : Memref sig .tc .vmem S1x1 .f32) (h5 : a5.IsWhole) (hc0 : ¬cond0_0 i) (hc1 : ¬cond0_1 i)
    (x0 x1 : Vec F S4096x512 .f32) (xs : Vec F S1x1 .f32) :
    sout0_B_0 c i a2 h2 a3 h3 a4 h4 a5 h5 hc0 hc1 x0 x1 xs = k0_pay1 xs (k0_pay4 x0 x1) := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero (S := S1x1) offsets2]
  simp only [View.readAt_eq_ld, h2.read_unread, h3.read_unread, h5.read_unread, View.ld_unit_zero (S := S4096x512) offsets2,
    View.ld_unit_zero (S := S1x1) offsets2]

/-- The last block of a shard: the cell likewise, -/
theorem cell_last (c : Dev nD) (i : grid0.Coords) (a2 : Memref sig .tc .vmem S4096x512 .f32) (h2 : a2.IsWhole)
    (a3 : Memref sig .tc .vmem S4096x512 .f32) (h3 : a3.IsWhole) (a4 : Memref sig .tc .vmem S1x1x1 .f32) (h4 : a4.IsWhole)
    (a5 : Memref sig .tc .vmem S1x1 .f32) (h5 : a5.IsWhole) (hc0 : ¬cond0_0 i) (hc1 : cond0_1 i)
    (x0 x1 : Vec F S4096x512 .f32) (xs : Vec F S1x1 .f32) :
    sout0_C_0 c i a2 h2 a3 h3 a4 h4 a5 h5 hc0 hc1 x0 x1 xs = k0_pay1 xs (k0_pay4 x0 x1) := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero (S := S1x1) offsets2]
  simp only [View.readAt_eq_ld, h2.read_unread, h3.read_unread, h5.read_unread, View.ld_unit_zero (S := S4096x512) offsets2,
    View.ld_unit_zero (S := S1x1) offsets2]

/-- and the output block ends at that new cell value, reshaped. -/
theorem out_last (c : Dev nD) (i : grid0.Coords) (a2 : Memref sig .tc .vmem S4096x512 .f32) (h2 : a2.IsWhole)
    (a3 : Memref sig .tc .vmem S4096x512 .f32) (h3 : a3.IsWhole) (a4 : Memref sig .tc .vmem S1x1x1 .f32) (h4 : a4.IsWhole)
    (a5 : Memref sig .tc .vmem S1x1 .f32) (h5 : a5.IsWhole) (hc0 : ¬cond0_0 i) (hc1 : cond0_1 i)
    (x0 x1 : Vec F S4096x512 .f32) (xs : Vec F S1x1 .f32) :
    out0_C_2 c i a2 h2 a3 h3 a4 h4 a5 h5 hc0 hc1 x0 x1 xs = k0_pay2 (k0_pay1 xs (k0_pay4 x0 x1)) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero (S := S1x1x1) offsets3, View.readCov_unit_zero (S := S1x1) _ offsets2]
  simp only [View.readAt_eq_ld, h2.read_unread, h3.read_unread, h5.read_unread, View.ld_unit_zero (S := S4096x512) offsets2,
    View.ld_unit_zero (S := S1x1) offsets2]

end Cert.KernelIdeal.Cases

end
-- ==== Proof.Spec.lean ====
/-
  The two programs as mathematics, over the extended reals.

  Each row i of the two [131072, 512] arrays holds a prediction row p and a target row t. With
  s = <p, t>, the reference forms the vector neg = p - s t, normalizes it by m = max(|neg|, eps) and
  takes loss = max(margin + <p, neg / m> - s, 0); the result is the mean of the losses over the rows.
  The kernel never forms neg: from the three row sums s = <p, t>, pp = <p, p>, tt = <t, t> it takes
  |neg|^2 = pp - 2 s s + s s tt and <p, neg> = pp - s s, and it adds the row losses up in 32 blocks
  of 4096 rows, 16 blocks to each of two partial sums, which are then added and divided by the count.
-/
import Idealize.ShloMosaic.PureOps.Ideal
import Idealize.ShloMosaic.PureOps.Ideal.Laws
import Idealize.ShloMosaic.Lib.ValueIdx

noncomputable section

namespace TripletLoss

open Idealize.ShloMosaic

/-- The float constants the two programs spell, as the extended reals their words denote:
    zero, two, the normalization floor eps, the margin, and the number of rows. -/
abbrev zeroC : EReal := Ideal.ofBits .f32 0x00000000#32
abbrev twoC : EReal := Ideal.ofBits .f32 0x40000000#32
abbrev epsC : EReal := Ideal.ofBits .f32 0x2B8CBCCC#32
abbrev marginC : EReal := Ideal.ofBits .f32 0x3F000000#32
abbrev countC : EReal := Ideal.ofBits .f32 0x48000000#32

/-- The kernel's loss of one row from its three row sums s = <p, t>, pp = <p, p>, tt = <t, t>. -/
def lossOfSums (s pp tt : EReal) : EReal :=
  max (marginC + Ideal.div (pp - s * s) (max (Ideal.sqrt (max (pp - twoC * s * s + s * s * tt) zeroC)) epsC) - s) zeroC

/-- The kernel's loss of the row with entries p, t. -/
def kernelRowLoss {n : ℕ} (p t : Fin n → EReal) : EReal :=
  lossOfSums (∑ k, p k * t k) (∑ k, p k * p k) (∑ k, t k * t k)

/-- The reference's loss of the row with entries p, t (each of its sums starts from the zero constant). -/
def refRowLoss {n : ℕ} (p t : Fin n → EReal) : EReal :=
  max (marginC
      + (zeroC + ∑ k, p k * Ideal.div (p k - (zeroC + ∑ j, p j * t j) * t k)
          (max (Ideal.sqrt (zeroC + ∑ k', (p k' - (zeroC + ∑ j, p j * t j) * t k') * (p k' - (zeroC + ∑ j, p j * t j) * t k'))) epsC))
      - (zeroC + ∑ j, p j * t j)) zeroC

/-- The two arrays' shape, and row i of an array. -/
abbrev Arr : Type := (⟨2, ![131072, 512]⟩ : Shape).Idx → EReal
abbrev rowOf (x : Arr) (i : Fin 131072) : Fin 512 → EReal := fun k => x (ValueIdx.ix2 i k)

/-- The reference's result: the mean of the rows' losses. -/
def refMean (preds targets : Arr) : EReal :=
  Ideal.div (zeroC + ∑ i : Fin 131072, refRowLoss (rowOf preds i) (rowOf targets i)) countC

/-- Row r of block b (32 blocks of 4096 rows). -/
abbrev rowIn (b : Fin 32) (r : Fin 4096) : Fin 131072 := ⟨b.val * 4096 + r.val, by omega⟩

/-- The kernel's sum of the losses of the rows of block b. -/
def blockLoss (preds targets : Arr) (b : Fin 32) : EReal :=
  ∑ r : Fin 4096, kernelRowLoss (rowOf preds (rowIn b r)) (rowOf targets (rowIn b r))

/-- The partial sum the kernel carries: restarted from zero at every 16th block, else the previous plus this block's. -/
def shardSum (B : ℕ → EReal) : ℕ → EReal
  | 0 => zeroC + B 0
  | n + 1 => if (n + 1) % 16 = 0 then zeroC + B (n + 1) else shardSum B n + B (n + 1)

/-- The block losses as a function of the natural numbers (zero past the last block). -/
def blockLossN (preds targets : Arr) (n : ℕ) : EReal :=
  if h : n < 32 then blockLoss preds targets ⟨n, h⟩ else 0

/-- The kernel's result: the two partial sums (after blocks 15 and 31) added from zero, divided by the count. -/
def kernelMean (preds targets : Arr) : EReal :=
  Ideal.div (zeroC + ∑ s : Fin 2, shardSum (blockLossN preds targets) (16 * s.val + 15)) countC

end TripletLoss

end
-- ==== Proof.KernelAccum.lean ====
/-
  The running sum across the grid.

  The 32 grid points are walked in order; point n handles block n of 4096 rows. Suppose the body's
  arithmetic at point n yields the number B n (the sum of that block's row losses). Then after
  point n the scratch cell holds the partial sum of its shard so far: B n alone (added to zero) when n is the
  first block of a shard (n = 0 mod 16), and the previous cell plus B n otherwise. At the last block
  of a shard (n = 15 mod 16) the output block holds the same number. This is an induction on n.
-/
import proofs.«166818_j77464030151303_2_alg».proof.Proof.KernelCases
import proofs.«166818_j77464030151303_2_alg».proof.Proof.Spec

noncomputable section

open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.Cases TripletLoss

variable (m : (ℓ : Loc nD τ sig) → Buf (Elt Ideal) ℓ)

/-- Adding a constant cell to a constant block sum, from zero and from a previous value. -/
theorem first_const (b : EReal) : k0_pay1 (F := Ideal) (k0_pay3 (F := Ideal)) (fun _ => b) = fun _ => zeroC + b := by
  unfold k0_pay1 k0_pay3
  dsimp only
  rw [shapeCast_self, shapeCast_self]
  rfl

theorem next_const (a b : EReal) : k0_pay1 (F := Ideal) (fun _ => a) (fun _ => b) = fun _ => a + b := by
  unfold k0_pay1
  dsimp only
  rw [shapeCast_self]
  rfl

/-- Copying a constant cell into the 1x1x1 output block. -/
theorem copy_const (a : EReal) : k0_pay2 (F := Ideal) (fun _ => a) = fun _ => a := rfl

/-- After point n the cell holds the shard's partial sum, and at a shard's last block so does the output block. -/
theorem cell_eq (c : Dev nD) (B : ℕ → EReal)
    (hB : ∀ t : Fin cfg0.N, k0_pay4 (F := Ideal) (iblk m c 0 t) (iblk m c 1 t) = fun _ => B t.val) :
    ∀ (n : ℕ) (h : n < cfg0.N),
      (outsAt0 m c n h).2 = (fun _ => shardSum B n)
      ∧ (n % 16 = 15 → (outsAt0 m c n h).1 = fun _ => shardSum B n)
  | 0, h => by
    have e : outsAt0 m c 0 h = _ := outsAt0_A m c ⟨0, h⟩ rfl (show ¬(0 : ℕ) % 16 = 15 by decide)
    refine ⟨?_, fun h15 => absurd h15 (by decide)⟩
    rw [e]
    dsimp only
    rw [cell_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      scM0_0 (Memref.isWhole_whole _) _ _ (iblk m c 0 ⟨0, h⟩) (iblk m c 1 ⟨0, h⟩), hB ⟨0, h⟩, first_const]
    rfl
  | n + 1, h => by
    have hN : cfg0.N = 32 := N_0
    have ih := cell_eq c B hB n (Nat.lt_of_succ_lt h)
    by_cases h0 : (n + 1) % 16 = 0
    · have h1 : ¬(n + 1) % 16 = 15 := by omega
      have e : outsAt0 m c (n + 1) h = _ := outsAt0_A m c ⟨n + 1, h⟩ h0 h1
      refine ⟨?_, fun h15 => absurd h15 h1⟩
      rw [e]
      dsimp only
      rw [cell_first c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) _ _ (iblk m c 0 ⟨n + 1, h⟩) (iblk m c 1 ⟨n + 1, h⟩),
        hB ⟨n + 1, h⟩, first_const]
      funext _
      show zeroC + B (n + 1) = shardSum B (n + 1)
      rw [shardSum, if_pos h0]
    · have hstep : shardSum B (n + 1) = shardSum B n + B (n + 1) := by rw [shardSum, if_neg h0]
      by_cases h1 : (n + 1) % 16 = 15
      · have e : outsAt0 m c (n + 1) h = _ := outsAt0_C m c ⟨n + 1, h⟩ h0 h1
        have eprev : (outsAt0 m c ((⟨n + 1, h⟩ : Fin cfg0.N).val - 1) (Nat.lt_of_le_of_lt (Nat.sub_le _ _) (⟨n + 1, h⟩ : Fin cfg0.N).isLt)).2
            = fun _ => shardSum B n := ih.1
        rw [e]
        dsimp only
        rw [cell_last c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) _ _ (iblk m c 0 ⟨n + 1, h⟩) (iblk m c 1 ⟨n + 1, h⟩) _,
          out_last c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) _ _ (iblk m c 0 ⟨n + 1, h⟩) (iblk m c 1 ⟨n + 1, h⟩) _,
          hB ⟨n + 1, h⟩, eprev, next_const, copy_const, hstep]
        exact ⟨rfl, fun _ => rfl⟩
      · have e : outsAt0 m c (n + 1) h = _ := outsAt0_B m c ⟨n + 1, h⟩ h0 h1
        have eprev : (outsAt0 m c ((⟨n + 1, h⟩ : Fin cfg0.N).val - 1) (Nat.lt_of_le_of_lt (Nat.sub_le _ _) (⟨n + 1, h⟩ : Fin cfg0.N).isLt)).2
            = fun _ => shardSum B n := ih.1
        refine ⟨?_, fun h15 => absurd h15 h1⟩
        rw [e]
        dsimp only
        rw [cell_middle c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) _ _ (iblk m c 0 ⟨n + 1, h⟩) (iblk m c 1 ⟨n + 1, h⟩) _,
          hB ⟨n + 1, h⟩, eprev, next_const, hstep]

end Cert.KernelIdeal.Accum

end
-- ==== Proof.KernelRun.lean ====
/-
  From the running sum to the kernel's result.

  The region's result array has shape [2,1,1]: entry s is written back once, at the last block of
  shard s (point 16 s + 15), with the shard's partial sum. The two write-backs cover the array, so it
  ends holding the two partial sums. The host lines after the region add its entries from zero and
  divide by the row count; over the extended reals that is the quotient of zero plus the sum over
  s < 2 of the partial sums.
-/
import proofs.«166818_j77464030151303_2_alg».proof.Proof.KernelAccum
import Idealize.ShloMosaic.Lib.StableHlo.Run
import Idealize.ShloMosaic.PureOps.Ideal.Laws

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.Accum TripletLoss Idealize.ShloMosaic.ValueIdx

variable (m : (ℓ : Loc nD τ sig) → Buf (Elt Ideal) ℓ) (ρ : Dev nD → PrngReg)

/-- The two partial sums, as contents of the [2,1,1] array. -/
def partials (B : ℕ → EReal) : S2x1x1.Idx → EReal := fun i => shardSum B (16 * (i 0).val + 15)

/-- The output window's block index at point t is (t / 16, 0, 0), and its blocks are whole (one entry). -/
theorem out_index : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)
theorem out_extent : ∀ (t : Fin cfg0.N) (a : Fin 3), win0_2.xsize (grid0.coords t) a = 1 :=
  (by decide +kernel : ∀ (t : Fin grid0.N) (a : Fin 3), win0_2.xsize (grid0.coords t) a = 1)

/-- What a write-back writes is the array's block of the two partial sums. -/
theorem flushed_eq (c : Dev nD) (B : ℕ → EReal)
    (hB : ∀ t : Fin cfg0.N, k0_pay4 (F := Ideal) (iblk m c 0 t) (iblk m c 1 t) = fun _ => B t.val)
    (t : Fin cfg0.N) (hf : (cfg0.win 2).flush t = true) :
    (dats m 0 c).flushed 2 t = ((cfg0.win 2).blk t).view.read (Elt Ideal) (partials B) := by
  have h15 : t.val % 16 = 15 := (flush0_2 t).mp hf
  show (cfg0.win 2).cut (grid0.coords t) ((dats m 0 c).after 2 t) = _
  rw [after0_2, (cell_eq m c B hB t.val t.isLt).2 h15]
  funext y
  rw [View.read_apply]
  show shardSum B t.val = partials B (((cfg0.win 2).blk t).view.emb y)
  unfold partials
  congr 1
  have hy : (y 0).val < win0_2.xsize (grid0.coords t) 0 := (y 0).isLt
  rw [out_extent t 0] at hy
  show t.val = 16 * (win0_2.index t 0 * 1 + 1 * (y 0).val) + 15
  rw [(out_index t).1]
  omega

/-- The two write-backs cover the array. -/
theorem final (c : Dev nD) (B : ℕ → EReal)
    (hB : ∀ t : Fin cfg0.N, k0_pay4 (F := Ideal) (iblk m c 0 t) (iblk m c 1 t) = fun _ => B t.val) :
    (dats m 0 c).arrAt 2 cfg0.N = partials B :=
  (dats m 0 c).arrAt_eq_of_cover 2 (partials B) (flushed_eq m c B hB) fun i => by
    have hN : cfg0.N = 32 := N_0
    have hi0 : (i 0 : Nat) < 2 := (i 0).isLt
    have hi1 : (i 1 : Nat) < 1 := (i 1).isLt
    have hi2 : (i 2 : Nat) < 1 := (i 2).isLt
    let t : Fin cfg0.N := ⟨16 * (i 0 : Nat) + 15, by omega⟩
    have htv : t.val = 16 * (i 0 : Nat) + 15 := rfl
    refine ⟨t, (flush0_2 t).mpr (by rw [htv]; omega), ?_⟩
    show i ∈ ((View.whole main_v0).slice (win0_2.rect t)).set
    rw [View.set_slice_whole, Rect.mem_set_unit]
    intro a
    match a with
    | ⟨0, _⟩ =>
      show win0_2.index t 0 * 1 ≤ (i 0 : Nat) ∧ (i 0 : Nat) < win0_2.index t 0 * 1 + win0_2.xsize (grid0.coords t) 0
      rw [(out_index t).1, out_extent t 0, htv]; omega
    | ⟨1, _⟩ =>
      show win0_2.index t 1 * 1 ≤ (i 1 : Nat) ∧ (i 1 : Nat) < win0_2.index t 1 * 1 + win0_2.xsize (grid0.coords t) 1
      rw [(out_index t).2.1, out_extent t 1]; omega
    | ⟨2, _⟩ =>
      show win0_2.index t 2 * 1 ≤ (i 2 : Nat) ∧ (i 2 : Nat) < win0_2.index t 2 * 1 + win0_2.xsize (grid0.coords t) 2
      rw [(out_index t).2.2, out_extent t 2]; omega

/-- The [2,1,1] index set is its first coordinate's range. -/
def shardEquiv : Fin 2 ≃ S2x1x1.Idx where
  toFun s := ix3 s 0 0
  invFun i := i 0
  left_inv _ := rfl
  right_inv i := by
    funext a
    match a with
    | ⟨0, _⟩ => rfl
    | ⟨1, _⟩ => exact Fin.ext (by have h : (i 1 : Nat) < 1 := (i 1).isLt; show 0 = (i 1 : Nat); omega)
    | ⟨2, _⟩ => exact Fin.ext (by have h : (i 2 : Nat) < 1 := (i 2).isLt; show 0 = (i 2 : Nat); omega)

/-- The host lines after the region, on the two partial sums: their sum from zero, over the count. -/
theorem tail_value (B : ℕ → EReal) (h1 : S2x1x1.ReducesTo [0, 1, 2] S_) (h2 : 0 < S_.numel) :
    Host.divf (Host.reduceAdd (F := Ideal) (partials B) (constant S_ .f32 0x00000000#32) h1 h2) (constant S_ .f32 0x48000000#32)
      = fun _ => Ideal.div (zeroC + ∑ s : Fin 2, shardSum B (16 * s.val + 15)) countC := by
  funext j
  show Ideal.div (Host.reduceAdd (F := Ideal) (partials B) (constant S_ .f32 0x00000000#32) h1 h2 j) countC = _
  refine congrArg (fun x => Ideal.div x countC) ?_
  simp only [Host.reduceAdd, Ideal.hostReduceAdd_def]
  rw [Ideal.hostReduceAdd_total h1 (fun b => b.elim0)]
  refine congrArg (fun x => zeroC + x) ?_
  exact (Equiv.sum_comp shardEquiv (partials B)).symm.trans rfl

end Cert.KernelIdeal.Run

end
-- ==== Proof.KernelBlock.lean ====
/-
  The kernel body's arithmetic on one block of 4096 rows, read at the ideal values.

  From the two loaded [4096, 512] blocks the body forms, for every row, the three sums s = <p, t>,
  pp = <p, p>, tt = <t, t> as [4096, 1] columns (a reduction over the second axis, then a cast that
  keeps row-major position), applies the row-loss arithmetic to the columns pointwise, and totals the
  resulting column (a cast to [1, 4096, 1], a reduction over the last two axes into a single entry,
  a cast to [1, 1, 1], the read of its one entry, and a broadcast to [1, 1]). The value at every
  index of the result is therefore the sum over the block's rows of the row loss.
-/
import proofs.«166818_j77464030151303_2_alg».proof.Proof.Gen.KernelIdeal.Skeleton
import proofs.«166818_j77464030151303_2_alg».proof.Proof.Spec
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-- The sum along a row, read at row r of the [4096, 1] column it is cast to: the reduction over the
    second axis at r is the sum over the row's 512 entries, and the cast from [4096] to [4096, 1]
    keeps row-major position, so entry (r, 0) of the column is entry r of the reduced vector. -/
theorem rowSum_eq (x y : FVec Ideal S4096x512 .f32) (h : S4096x512.Reduces [1] S4096)
    (hφ : FKind.Formats .f32) (hacc : (0x00000000#32 : BitVec 32) = FKind.add.neutral .f32 hφ)
    (h' : S4096.ShapeCasts S4096x1) (r : Fin 4096) :
    shapeCast S4096x1 (multiReduction (F := Ideal) .add [1] S4096 (mulf x y) 0x00000000#32 h hφ hacc) h' (ix2 r 0)
      = ∑ k : Fin 512, x (ix2 r k) * y (ix2 r k) := by
  rw [shapeCast_apply _ h' (ix2 r 0) (ix1 r) (by
    rw [Shape.rowMajor_val_one, Shape.rowMajor_val_two]
    show r.val = r.val * 1 + 0
    omega)]
  rw [Ideal.multiReduction_add_single]
  refine Finset.sum_congr rfl fun k _ => ?_
  have e : h.lift (ix1 r) k = ix2 r k := by
    funext c
    match c with
    | ⟨0, _⟩ => exact Fin.ext rfl
    | ⟨1, _⟩ => exact Fin.ext rfl
  rw [e]
  rfl

/-- The total of a [4096, 1] column: cast to [1, 4096, 1], summed over the last two axes into [1],
    cast to [1, 1, 1] and read at (0, 0, 0). A reduction into a shape with one index is the sum over
    every source index, and a cast only renames indices, so the value is the sum of the column. -/
theorem columnTotal_eq (w : FVec Ideal S4096x1 .f32) (h1 : S4096x1.ShapeCasts S1x4096x1)
    (h2 : S1x4096x1.Reduces [1, 2] S1) (hφ : FKind.Formats .f32)
    (hacc : (0x00000000#32 : BitVec 32) = FKind.add.neutral .f32 hφ) (h3 : S1.ShapeCasts S1x1x1)
    (h4 : ∀ a, (![0, 0, 0] : Fin 3 → Nat) a < S1x1x1.size a) :
    extractAt ![0, 0, 0]
        (shapeCast S1x1x1 (multiReduction (F := Ideal) .add [1, 2] S1 (shapeCast S1x4096x1 w h1) 0x00000000#32 h2 hφ hacc) h3) h4
      = ∑ r : Fin 4096, w (ix2 r 0) := by
  unfold extractAt
  show multiReduction (F := Ideal) .add [1, 2] S1 (shapeCast S1x4096x1 w h1) 0x00000000#32 h2 hφ hacc _ = _
  rw [Ideal.multiReduction_add_total _ _ h2 (fun b => by match b with | ⟨0, _⟩ => rfl)]
  show ∑ i : S1x4096x1.Idx, w (Shape.reshapeEquiv h1 i) = _
  rw [Equiv.sum_comp (Shape.reshapeEquiv h1) w, sum_idx2]
  refine Finset.sum_congr rfl fun r _ => ?_
  exact Fin.sum_univ_one _

/-- The per-row arithmetic on [4096, 1] columns, read at an index, is the loss of that row's three sums:
    every operation is pointwise and a broadcast constant reads as the constant. -/
theorem lossColumn_apply (s pp tt : FVec Ideal S4096x1 .f32) (i : S4096x1.Idx) :
    maximumf
        (subf
          (addf (broadcast S4096x1 (Scalar.ofBits (F := Ideal) .f32 0x3F000000#32))
            (divf (subf pp (mulf s s))
              (maximumf
                (sqrt (maximumf
                  (addf (subf pp (mulf (mulf (broadcast S4096x1 (Scalar.ofBits (F := Ideal) .f32 0x40000000#32)) s) s))
                    (mulf (mulf s s) tt))
                  (broadcast S4096x1 (Scalar.ofBits (F := Ideal) .f32 0x00000000#32))))
                (broadcast S4096x1 (Scalar.ofBits (F := Ideal) .f32 0x2B8CBCCC#32)))))
          s)
        (broadcast S4096x1 (Scalar.ofBits (F := Ideal) .f32 0x00000000#32)) i
      = TripletLoss.lossOfSums (s i) (pp i) (tt i) := rfl

/-- The body's payload on a block: at every index, the sum of the row losses of the block's 4096 rows. -/
theorem blockSum_eq (x0 x1 : Vec Ideal S4096x512 .f32) :
    k0_pay4 (F := Ideal) x0 x1
      = fun _ => ∑ r : Fin 4096, TripletLoss.kernelRowLoss (fun k => x0 (ix2 r k)) (fun k => x1 (ix2 r k)) := by
  funext j
  unfold k0_pay4
  refine (columnTotal_eq _ _ _ _ _ _ _).trans (Finset.sum_congr rfl fun r _ => ?_)
  refine (lossColumn_apply _ _ _ _).trans ?_
  unfold TripletLoss.kernelRowLoss
  refine congr (congr (congrArg TripletLoss.lossOfSums ?_) ?_) ?_
  · exact rowSum_eq x0 x1 _ _ _ _ r
  · exact rowSum_eq x0 x0 _ _ _ _ r
  · exact rowSum_eq x1 x1 _ _ _ _ r

end Cert.KernelIdeal.Block

end
-- ==== Proof.KernelBlocks.lean ====
import proofs.«166818_j77464030151303_2_alg».proof.Proof.Gen.KernelIdeal.Frame
import proofs.«166818_j77464030151303_2_alg».proof.Proof.Spec
import Idealize.ShloMosaic.Lib.ValueIdx
import Idealize.ShloMosaic.Lib.Pipeline.Value

/-!
  Which rows of the two argument arrays a grid point's input blocks hold. The grid has 2 x 16 points,
  walked row-major, and both input windows move along the rows only: at point t (coordinates (a, b),
  t = 16 a + b) each window shows block 16 a + b = t of 4096 rows and all 512 columns. Entry (r, k) of
  the block is therefore entry (4096 t + r, k) of the array.
-/

noncomputable section

open Idealize.ShloMosaic Idealize.ShloMosaic.TcCoe Idealize.SL.Sem

namespace Cert.KernelIdeal.Blocks

open Cert.KernelIdeal Cert.KernelIdeal.Gen Idealize.ShloMosaic Idealize.ShloMosaic.ValueIdx

variable {F : FTy → Type} [FloatOps F]
variable (m : (ℓ : Loc nD τ sig) → Buf (Elt F) ℓ)

/-- The predictions' window at point t sits at block t along the rows and block 0 along the columns
    (decided over the 32 grid points). -/
theorem idx_preds : ∀ t : Fin grid0.N, win0_0.index t 0 = t.val ∧ win0_0.index t 1 = 0 := by decide +kernel

/-- The targets' window at point t sits at block t along the rows and block 0 along the columns. -/
theorem idx_targets : ∀ t : Fin grid0.N, win0_1.index t 0 = t.val ∧ win0_1.index t 1 = 0 := by decide +kernel

/-- Entry (r, k) of the predictions' block at point t is entry (4096 t + r, k) of the predictions:
    a block's coordinate is its index times the block size plus the coordinate inside the block. -/
theorem preds_block (c : Dev nD) (t : Fin cfg0.N) (ht : t.val < 32) (r : Fin 4096) (k : Fin 512) :
    (iblk m c 0 t : Vec F S4096x512 .f32) (ix2 r k) = m ((c : Thread nD τ).loc main_arg1) (ix2 (TripletLoss.rowIn ⟨t.val, ht⟩ r) k) := by
  have hi := idx_preds t
  unfold iblk
  rw [View.read_apply]
  show V m c main_arg1 _ = m (c.tc.loc main_arg1) _
  unfold V
  congr 1
  funext a
  apply Fin.ext
  match a with
  | ⟨0, _⟩ => show win0_0.index t 0 * 4096 + 1 * r.val = t.val * 4096 + r.val; rw [hi.1]; omega
  | ⟨1, _⟩ => show win0_0.index t 1 * 512 + 1 * k.val = k.val; rw [hi.2]; omega

/-- Entry (r, k) of the targets' block at point t is entry (4096 t + r, k) of the targets. -/
theorem targets_block (c : Dev nD) (t : Fin cfg0.N) (ht : t.val < 32) (r : Fin 4096) (k : Fin 512) :
    (iblk m c 1 t : Vec F S4096x512 .f32) (ix2 r k) = m ((c : Thread nD τ).loc main_arg0) (ix2 (TripletLoss.rowIn ⟨t.val, ht⟩ r) k) := by
  have hi := idx_targets t
  unfold iblk
  rw [View.read_apply]
  show V m c main_arg0 _ = m (c.tc.loc main_arg0) _
  unfold V
  congr 1
  funext a
  apply Fin.ext
  match a with
  | ⟨0, _⟩ => show win0_1.index t 0 * 4096 + 1 * r.val = t.val * 4096 + r.val; rw [hi.1]; omega
  | ⟨1, _⟩ => show win0_1.index t 1 * 512 + 1 * k.val = k.val; rw [hi.2]; omega

end Cert.KernelIdeal.Blocks

end
-- ==== Proof.KernelValue.lean ====
/-
  The kernel's result as the specification's block-wise mean.

  At point t the two input windows show rows 4096 t .. 4096 t + 4095 of the predictions and of the
  targets, so the body's arithmetic there is the loss sum of block t. The running sum then makes the
  region's result the two shard sums, and the host lines make the final value the block-wise mean.
-/
import proofs.«166818_j77464030151303_2_alg».proof.Proof.KernelRun
import proofs.«166818_j77464030151303_2_alg».proof.Proof.KernelBlock
import proofs.«166818_j77464030151303_2_alg».proof.Proof.KernelBlocks

noncomputable section

open Idealize.ShloMosaic Idealize.ShloMosaic.TcCoe Idealize.SL.Sem
open Idealize.ShloMosaic.Pipeline (Dat)

namespace Cert.KernelIdeal.Result

open Cert.KernelIdeal Cert.KernelIdeal.Gen TripletLoss Idealize.ShloMosaic.ValueIdx

variable (m : (ℓ : Loc nD τ sig) → Buf (Elt Ideal) ℓ) (ρ : Dev nD → PrngReg)

/-- The predictions and the targets as the kernel is launched with them. -/
abbrev preds (c : Dev nD) : Arr := m ((c : Thread nD τ).loc main_arg1)
abbrev targets (c : Dev nD) : Arr := m ((c : Thread nD τ).loc main_arg0)

/-- The body's arithmetic at point t is the loss sum of block t. -/
theorem block_eq (c : Dev nD) (t : Fin cfg0.N) :
    k0_pay4 (F := Ideal) (iblk m c 0 t) (iblk m c 1 t) = fun _ => blockLossN (preds m c) (targets m c) t.val := by
  have ht : t.val < 32 := lt_of_lt_of_eq t.isLt N_0
  refine (Block.blockSum_eq (iblk m c 0 t) (iblk m c 1 t)).trans ?_
  funext _
  rw [blockLossN, dif_pos ht]
  unfold blockLoss
  refine Finset.sum_congr rfl fun r _ => ?_
  exact congrArg₂ kernelRowLoss (funext fun k => Blocks.preds_block m c t ht r k) (funext fun k => Blocks.targets_block m c t ht r k)

/-- What the host lines after the region leave in the result buffer. -/
theorem result_eq (c : Dev nD) :
    Pipeline.afterTail₀ cfgs (dats m) 0 (V0 m) [hostOps1] c main_v2 = fun _ => kernelMean (preds m c) (targets m c) := by
  unfold Pipeline.afterTail₀
  show StableHlo.after hostOps1 _ (Proc.devRef .tc main_v2) = _
  after_results
  rw [Pipeline.withArrays_arr spec0 launch0.win.arr_inj c _ _ 2, Run.final m c _ (block_eq m c)]
  exact Run.tail_value _ _ _

/-- The kernel's run: the result buffer ends at the block-wise mean, the three arguments unchanged. -/
theorem run : θ_run defs (onTc (τ := τ) (main (F := Ideal))) ⟨m, fun _ => 0, ρ⟩ fun r => ∀ c : Dev nD,
      r.2.mem ((c.tc : Thread nD τ).loc main_v2) = (fun _ => kernelMean (preds m c) (targets m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (result_eq m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c)⟩)
    (run_main m ρ)

end Cert.KernelIdeal.Result

end
-- ==== Proof.BlockSums.lean ====
/-
  Regrouping the block-wise sum into one sum over all rows.

  The kernel adds the row losses in 32 blocks of 4096 rows; blocks 0..15 go to one carried partial
  sum and blocks 16..31 to a second one, and the two partial sums are added. Since the extended
  reals are an additive commutative monoid, this is the sum of the row losses over all 131072 rows:
  a carried partial sum is the sum of its 16 blocks, two runs of 16 blocks are the 32 blocks, and
  32 blocks of 4096 rows are the 131072 rows, row r of block b being row b * 4096 + r.
-/
import proofs.«166818_j77464030151303_2_alg».proof.Proof.Spec

noncomputable section

namespace TripletLoss

open Idealize.ShloMosaic

/-- The zero constant is the extended real 0. -/
theorem zeroC_eq : zeroC = 0 := Ideal.ofBits_zero_f32

/-- A sum over m * n indices, taken as m consecutive runs of n: index i = b * n + r. -/
theorem sum_runs {M : Type*} [AddCommMonoid M] (m n : ℕ) (f : Fin (m * n) → M)
    (g : Fin m → Fin n → M)
    (hg : ∀ (b : Fin m) (r : Fin n) (h : b.val * n + r.val < m * n), g b r = f ⟨b.val * n + r.val, h⟩) :
    ∑ b : Fin m, ∑ r : Fin n, g b r = ∑ i : Fin (m * n), f i := by
  rw [← Equiv.sum_comp finProdFinEquiv f, Fintype.sum_prod_type]
  refine Finset.sum_congr rfl fun b _ => Finset.sum_congr rfl fun r _ => ?_
  have h : b.val * n + r.val < m * n := by
    calc b.val * n + r.val < b.val * n + n := Nat.add_lt_add_left r.isLt _
      _ = (b.val + 1) * n := (Nat.succ_mul _ _).symm
      _ ≤ m * n := Nat.mul_le_mul_right _ b.isLt
  rw [hg b r h]
  congr 1
  apply Fin.ext
  simp only [finProdFinEquiv_apply_val]
  rw [Nat.mul_comm, Nat.add_comm]

/-- At the first block of a run the carried partial sum restarts: it is that block's value. -/
theorem shardSum_restart (B : ℕ → EReal) (n : ℕ) (h : n % 16 = 0) : shardSum B n = B n := by
  cases n with
  | zero => rw [shardSum, zeroC_eq, zero_add]
  | succ k => rw [shardSum, if_pos h, zeroC_eq, zero_add]

/-- Inside a run the carried partial sum is the previous one plus this block's value. -/
theorem shardSum_step (B : ℕ → EReal) (k : ℕ) (h : (k + 1) % 16 ≠ 0) :
    shardSum B (k + 1) = shardSum B k + B (k + 1) := by
  rw [shardSum, if_neg h]

/-- After block j of run s the carried partial sum is the sum of the run's blocks 0..j. -/
theorem shardSum_run (B : ℕ → EReal) (s : ℕ) :
    ∀ j : ℕ, j < 16 → shardSum B (16 * s + j) = ∑ b ∈ Finset.range (j + 1), B (16 * s + b) := by
  intro j
  induction j with
  | zero =>
    intro _
    rw [Finset.sum_range_one]
    exact shardSum_restart B _ (by omega)
  | succ j ih =>
    intro hj
    have hne : (16 * s + j + 1) % 16 ≠ 0 := by omega
    rw [Finset.sum_range_succ, ← ih (by omega)]
    exact shardSum_step B (16 * s + j) hne

/-- At the end of run s the carried partial sum is the sum of the run's 16 blocks. -/
theorem shardSum_run_end (B : ℕ → EReal) (s : ℕ) :
    shardSum B (16 * s + 15) = ∑ b : Fin 16, B (16 * s + b.val) := by
  rw [shardSum_run B s 15 (by omega), Finset.sum_range]

/-- The kernel's mean is the sum of the row losses over all rows, from zero, divided by the count. -/
theorem kernelMean_eq (preds targets : Arr) :
    kernelMean preds targets
      = Ideal.div (zeroC + ∑ i : Fin 131072, kernelRowLoss (rowOf preds i) (rowOf targets i)) countC := by
  -- the two carried partial sums are the 32 blocks
  have h32 : ∑ s : Fin 2, shardSum (blockLossN preds targets) (16 * s.val + 15)
      = ∑ c : Fin (2 * 16), blockLoss preds targets c := by
    rw [← sum_runs 2 16 (blockLoss preds targets)
      (fun s b => blockLossN preds targets (16 * s.val + b.val))]
    · exact Finset.sum_congr rfl fun s _ => shardSum_run_end _ _
    · intro s b h
      have h' : 16 * s.val + b.val < 32 := by omega
      rw [blockLossN, dif_pos h']
      congr 1
      apply Fin.ext
      show 16 * s.val + b.val = s.val * 16 + b.val
      omega
  -- the 32 blocks of 4096 rows are the 131072 rows
  have hrows : ∑ c : Fin 32, blockLoss preds targets c
      = ∑ i : Fin (32 * 4096), kernelRowLoss (rowOf preds i) (rowOf targets i) := by
    rw [← sum_runs 32 4096 (fun i : Fin (32 * 4096) => kernelRowLoss (rowOf preds i) (rowOf targets i))
      (fun c r => kernelRowLoss (rowOf preds (rowIn c r)) (rowOf targets (rowIn c r)))]
    · rfl
    · intro c r h
      rfl
  have key : ∑ s : Fin 2, shardSum (blockLossN preds targets) (16 * s.val + 15)
      = ∑ i : Fin 131072, kernelRowLoss (rowOf preds i) (rowOf targets i) := h32.trans hrows
  rw [kernelMean, key]

end TripletLoss

end
-- ==== Proof.RowAlgebra.lean ====
/-
  The per-row algebra: on a row of real entries the reference's loss and the kernel's loss are the
  same extended real.

  Write s = <p, t>, pp = <p, p>, tt = <t, t> for the three row sums. Expanding the square,
      sum_k (p_k - s t_k)^2 = pp - 2 s <p, t> + s s tt = pp - 2 s s + s s tt,
  which is a sum of squares and so nonnegative: the kernel's clamp max(., 0) under the square root
  is the identity, and the two programs take the same normalizer m = max(sqrt(.), eps) > 0.
  Likewise
      sum_k p_k ((p_k - s t_k) / m) = (pp - s <p, t>) / m = (pp - s s) / m.
  Every quantity is a real number, so each extended-real operation is the coercion of the real one,
  and both losses come to max(margin + (pp - s s)/m - s, 0).
-/
import proofs.«166818_j77464030151303_2_alg».proof.Proof.Spec

noncomputable section

namespace TripletLoss

open Idealize.ShloMosaic

namespace RowAlgebra

/-! ### The constants as real numbers -/

/-- The pattern of `+0.0` denotes `0`. -/
theorem ofBits_zero : Ideal.ofBits .f32 0x00000000#32 = 0 := Ideal.ofBits_zero_f32

/-- The pattern of `2.0` denotes the real `2`. -/
theorem ofBits_two : Ideal.ofBits .f32 0x40000000#32 = ((2 : ℝ) : EReal) := by
  simp [Ideal.ofBits, Ideal.ieee, -EReal.coe_mul]; norm_num

/-- The pattern of the margin denotes the real `1/2`. -/
theorem ofBits_margin : Ideal.ofBits .f32 0x3F000000#32 = ((1 / 2 : ℝ) : EReal) := by
  simp [Ideal.ofBits, Ideal.ieee, -EReal.coe_mul]; norm_num

/-- The normalization floor as a real: `9223372 / 2^63`, about `1e-12`. -/
def epsR : ℝ := 9223372 / 2 ^ 63

theorem epsR_pos : 0 < epsR := by unfold epsR; positivity

/-- The pattern of the normalization floor denotes `epsR`. -/
theorem ofBits_eps : Ideal.ofBits .f32 0x2B8CBCCC#32 = ((epsR : ℝ) : EReal) := by
  unfold epsR
  simp [Ideal.ofBits, Ideal.ieee, -EReal.coe_mul]; norm_num

theorem zeroC_eq : zeroC = 0 := ofBits_zero
theorem twoC_eq : twoC = ((2 : ℝ) : EReal) := ofBits_two
theorem marginC_eq : marginC = ((1 / 2 : ℝ) : EReal) := ofBits_margin
theorem epsC_eq : epsC = ((epsR : ℝ) : EReal) := ofBits_eps

/-! ### Coercion of the reals into the extended reals -/

/-- The coercion is monotone, so it commutes with `max`. -/
theorem coe_max (a b : ℝ) : ((max a b : ℝ) : EReal) = max (a : EReal) (b : EReal) :=
  EReal.coe_strictMono.monotone.map_max

/-- The coercion is additive, so it commutes with finite sums. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The square root of a nonnegative real. -/
theorem sqrt_coe_of_nonneg {r : ℝ} (h : 0 ≤ r) : Ideal.sqrt (r : EReal) = ((Real.sqrt r : ℝ) : EReal) := by
  rw [Ideal.sqrt_coe, if_neg (not_lt.mpr h)]

/-- The quotient of a real by a nonzero real. -/
theorem div_coe_coe (a : ℝ) {m : ℝ} (hm : m ≠ 0) :
    Ideal.div (a : EReal) (m : EReal) = ((a * (1 / m) : ℝ) : EReal) := by
  rw [Ideal.div_coe hm, ← EReal.coe_mul]

/-! ### The two identities over the reals -/

/-- Expanding the square: `sum (p - s t)^2 = <p,p> - 2 s <p,t> + s s <t,t>`. -/
theorem sum_sq_sub {n : ℕ} (p t : Fin n → ℝ) (s : ℝ) :
    ∑ k, (p k - s * t k) * (p k - s * t k)
      = (∑ k, p k * p k) - 2 * s * (∑ k, p k * t k) + s * s * ∑ k, t k * t k := by
  have h : ∀ k, (p k - s * t k) * (p k - s * t k)
      = p k * p k - 2 * s * (p k * t k) + s * s * (t k * t k) := fun k => by ring
  simp only [h, Finset.sum_add_distrib, Finset.sum_sub_distrib, ← Finset.mul_sum]

/-- The inner product of `p` with `(p - s t) c`: `(<p,p> - s <p,t>) c`. -/
theorem sum_mul_sub {n : ℕ} (p t : Fin n → ℝ) (s c : ℝ) :
    ∑ k, p k * ((p k - s * t k) * c) = ((∑ k, p k * p k) - s * ∑ k, p k * t k) * c := by
  have h : ∀ k, p k * ((p k - s * t k) * c) = (p k * p k - s * (p k * t k)) * c := fun k => by ring
  simp only [h, ← Finset.sum_mul, Finset.sum_sub_distrib, ← Finset.mul_sum]

end RowAlgebra

open RowAlgebra

/-! ### The row losses agree -/

/-- On a row of real entries the reference's loss is the kernel's loss. -/
theorem refRowLoss_eq_kernelRowLoss {n : ℕ} (p t : Fin n → ℝ) :
    refRowLoss (fun k => ((p k : ℝ) : EReal)) (fun k => ((t k : ℝ) : EReal))
      = kernelRowLoss (fun k => ((p k : ℝ) : EReal)) (fun k => ((t k : ℝ) : EReal)) := by
  -- the three row sums, the squared norm of p - s t, and the normalizer, as reals
  obtain ⟨s, hs⟩ : ∃ s : ℝ, ∑ k, p k * t k = s := ⟨_, rfl⟩
  obtain ⟨pp, hpp⟩ : ∃ pp : ℝ, ∑ k, p k * p k = pp := ⟨_, rfl⟩
  obtain ⟨tt, htt⟩ : ∃ tt : ℝ, ∑ k, t k * t k = tt := ⟨_, rfl⟩
  obtain ⟨rad, hrad_def⟩ : ∃ rad : ℝ, ∑ k, (p k - s * t k) * (p k - s * t k) = rad := ⟨_, rfl⟩
  obtain ⟨m, hm_def⟩ : ∃ m : ℝ, max (Real.sqrt rad) epsR = m := ⟨_, rfl⟩
  have hrad : 0 ≤ rad := by
    rw [← hrad_def]; exact Finset.sum_nonneg fun k _ => mul_self_nonneg _
  have hrad' : pp - 2 * s * s + s * s * tt = rad := by
    rw [← hrad_def, sum_sq_sub, hs, hpp, htt]
  have hm : m ≠ 0 := by
    rw [← hm_def]; exact (lt_max_of_lt_right epsR_pos).ne'
  -- the extended-real row sums are the coercions of the real ones
  have hS : ∑ k, ((p k : ℝ) : EReal) * ((t k : ℝ) : EReal) = (s : EReal) := by
    simp only [← EReal.coe_mul, coe_sum, hs]
  have hPP : ∑ k, ((p k : ℝ) : EReal) * ((p k : ℝ) : EReal) = (pp : EReal) := by
    simp only [← EReal.coe_mul, coe_sum, hpp]
  have hTT : ∑ k, ((t k : ℝ) : EReal) * ((t k : ℝ) : EReal) = (tt : EReal) := by
    simp only [← EReal.coe_mul, coe_sum, htt]
  -- the reference's squared norm, the common normalizer, and the reference's inner product
  have hRad : ∑ k, (((p k : ℝ) : EReal) - (s : EReal) * ((t k : ℝ) : EReal))
      * (((p k : ℝ) : EReal) - (s : EReal) * ((t k : ℝ) : EReal)) = (rad : EReal) := by
    simp only [← EReal.coe_mul, ← EReal.coe_sub, coe_sum, hrad_def]
  have hM : max (Ideal.sqrt (rad : EReal)) epsC = (m : EReal) := by
    rw [sqrt_coe_of_nonneg hrad, epsC_eq, ← coe_max, hm_def]
  have hRef : ∑ k, ((p k : ℝ) : EReal)
      * Ideal.div (((p k : ℝ) : EReal) - (s : EReal) * ((t k : ℝ) : EReal)) (m : EReal)
      = (((pp - s * s) * (1 / m) : ℝ) : EReal) := by
    simp only [← EReal.coe_mul, ← EReal.coe_sub, div_coe_coe _ hm, coe_sum, sum_mul_sub, hs, hpp]
  -- the kernel's radicand is the same squared norm, its clamp is the identity, and its quotient
  have hKerRad : (pp : EReal) - twoC * (s : EReal) * (s : EReal) + (s : EReal) * (s : EReal) * (tt : EReal)
      = (rad : EReal) := by
    rw [twoC_eq, ← hrad']
    simp only [EReal.coe_mul, EReal.coe_sub, EReal.coe_add]
  have hKer : Ideal.div ((pp : EReal) - (s : EReal) * (s : EReal))
      (max (Ideal.sqrt (max ((pp : EReal) - twoC * (s : EReal) * (s : EReal)
        + (s : EReal) * (s : EReal) * (tt : EReal)) zeroC)) epsC)
      = (((pp - s * s) * (1 / m) : ℝ) : EReal) := by
    rw [hKerRad, zeroC_eq, max_eq_left (EReal.coe_nonneg.mpr hrad), hM, ← EReal.coe_mul, ← EReal.coe_sub,
      div_coe_coe _ hm]
  simp only [refRowLoss, kernelRowLoss, lossOfSums]
  rw [hS, hPP, hTT, hKer]
  simp only [zeroC_eq, zero_add]
  rw [hRad, hM, hRef]

/-- The same, for extended-real rows all of whose entries are finite. -/
theorem refRowLoss_eq_kernelRowLoss' {n : ℕ} (p t : Fin n → EReal)
    (hp : ∀ k, ∃ r : ℝ, p k = (r : EReal)) (ht : ∀ k, ∃ r : ℝ, t k = (r : EReal)) :
    refRowLoss p t = kernelRowLoss p t := by
  choose p' hp' using hp
  choose t' ht' using ht
  have e1 : p = fun k => ((p' k : ℝ) : EReal) := funext hp'
  have e2 : t = fun k => ((t' k : ℝ) : EReal) := funext ht'
  rw [e1, e2]
  exact refRowLoss_eq_kernelRowLoss p' t'

end TripletLoss

end
-- ==== Proof.RefValue.lean ====
import proofs.«166818_j77464030151303_2_alg».proof.Proof.Gen.ReferenceIdeal.Read
import proofs.«166818_j77464030151303_2_alg».proof.Proof.Spec

/-!
  The reference program's result, read one operation at a time, is the specification's mean of the
  rows' losses: every reduction along a row is the row's sum started from the zero constant, every
  broadcast of a row statistic reads it back at the row's own index, and the last reduction adds the
  131072 row losses before the division by the count.
-/

noncomputable section

open scoped BigOperators

namespace Cert.ReferenceIdeal.RefValue

open Cert.ReferenceIdeal Cert.ReferenceIdeal.Read Idealize.ShloMosaic Idealize.ShloMosaic.ValueIdx TripletLoss

/-- The index at which a row reduction reads entry k of row i is the pair (i, k). -/
theorem idx_v1 (i : Fin 131072) (k : Fin 512) : idx_main_v1 (ix1 i) k = ix2 i k :=
  funext fun a => Fin.ext (by match a with | ⟨0, _⟩ => rfl | ⟨1, _⟩ => rfl)
theorem idx_v7 (i : Fin 131072) (k : Fin 512) : idx_main_v7 (ix1 i) k = ix2 i k :=
  funext fun a => Fin.ext (by match a with | ⟨0, _⟩ => rfl | ⟨1, _⟩ => rfl)
theorem idx_v15 (i : Fin 131072) (k : Fin 512) : idx_main_v15 (ix1 i) k = ix2 i k :=
  funext fun a => Fin.ext (by match a with | ⟨0, _⟩ => rfl | ⟨1, _⟩ => rfl)

/-- A row statistic broadcast back over the row is read, at entry (i, k), at the row index i. -/
theorem idx_v2_v3 (i : Fin 131072) (k : Fin 512) : idx_main_v2 (idx_main_v3 (ix2 i k)) = ix1 i :=
  funext fun a => Fin.ext (by match a with | ⟨0, _⟩ => rfl)
theorem idx_v8_v12 (i : Fin 131072) (k : Fin 512) : idx_main_v8 (idx_main_v12 (ix2 i k)) = ix1 i :=
  funext fun a => Fin.ext (by match a with | ⟨0, _⟩ => rfl)

/-- A rank-1 index set is its one coordinate's range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- The loss the reference computes for row i is the specification's loss of that row of the two arrays
    (the second argument holds the predictions, the first the targets). -/
theorem row_eq (x0 x1 : (⟨Cert.ReferenceIdeal.S131072x512, .f32⟩ : BufTy).Contents (Elt Ideal)) (i : Fin 131072) :
    val_main_v20 (F := Ideal) x0 x1 (ix1 i) = refRowLoss (rowOf x1 i) (rowOf x0 i) := by
  simp only [val_main_v20_apply, val_main_v19_apply, val_main_v18_apply, val_main_v17_apply, val_main_v16_apply,
    val_main_v15_apply, val_main_v14_apply, val_main_v13_apply, val_main_v12_apply, val_main_v11_apply,
    val_main_v10_apply, val_main_v9_apply, val_main_v8_apply, val_main_v7_apply, val_main_v6_apply,
    val_main_v5_apply, val_main_v4_apply, val_main_v3_apply, val_main_v2_apply, val_main_v1_apply,
    val_main_v0_apply, val_main_cst_apply, val_main_cst_0_apply, val_main_cst_1_apply, val_main_cst_2_apply,
    val_main_cst_3_apply, val_main_cst_4_apply,
    idx_v1, idx_v7, idx_v15, idx_v2_v3, idx_v8_v12]
  rfl

/-- The reference's result is, at its one index, the mean of the rows' losses. -/
theorem result_eq (x0 x1 : (⟨Cert.ReferenceIdeal.S131072x512, .f32⟩ : BufTy).Contents (Elt Ideal)) :
    Cert.ReferenceIdeal.Read.val_main_v22 (F := Ideal) x0 x1 = fun _ => TripletLoss.refMean x1 x0 := by
  funext i
  rw [val_main_v22_apply, val_main_v21_apply, val_main_cst_5_apply, val_main_cst_6_apply, sum_idx1]
  simp only [row_eq]
  rfl

end Cert.ReferenceIdeal.RefValue

end
-- ==== Proof.FiniteInputs.lean ====
import proofs.«166818_j77464030151303_2_alg».proof.Defs
import proofs.«166818_j77464030151303_2_alg».proof.Proof.Gen.Pre_finite_inputs
import Idealize.ShloMosaic.Lib.ReduceAll
import Idealize.ShloMosaic.Lib.ValueIdx

/-!
  The precondition, read back: it compares the absolute value of every entry of the two float arrays
  with +∞ and demands that every comparison holds. An extended real whose absolute value is below +∞
  is neither of the two infinities, hence a real number.
-/

noncomputable section

namespace Cert.KernelIdeal.Finite

open Idealize.ShloMosaic Idealize.SL.Sem

/-- The scalar shape has one index. -/
instance : Subsingleton Cert.Pre_finite_inputs.S_.Idx := ⟨fun a b => funext fun d => d.elim0⟩

/-- The word the precondition compares against denotes +∞. -/
theorem ofBits_inf : Ideal.ofBits .f32 0x7F800000#32 = ⊤ := by simp [Ideal.ofBits, Ideal.ieee]

/-- An extended real with |x| = max x (-x) strictly below +∞ is a real number. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- Under the precondition every entry of the two float arrays is a real number, on every device. -/
theorem real_of_pre [hPre : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    (∀ j, ∃ r : ℝ, m ((c.tc : Thread Cert.KernelIdeal.nD Cert.KernelIdeal.τ).loc Cert.KernelIdeal.main_arg0) j = (r : EReal))
    ∧ (∀ j, ∃ r : ℝ, m ((c.tc : Thread Cert.KernelIdeal.nD Cert.KernelIdeal.τ).loc Cert.KernelIdeal.main_arg1) j = (r : EReal)) := by
  have h0 := congrFun (h c) ValueIdx.ix0
  dsimp only [Cert.Pre_finite_inputs.fn] at h0
  obtain ⟨ha, hb⟩ := IntOp.andi_eq_one.1 h0
  exact ⟨fun j => real_of_abs_lt _ (Host.reduce_andi_all _ _ _ _ _ ha j),
    fun j => real_of_abs_lt _ (Host.reduce_andi_all _ _ _ _ _ hb j)⟩

end Cert.KernelIdeal.Finite

end
-- ==== Proof.lean ====
/-
  A triplet-style loss over 131072 rows of 512 entries: for a prediction row p and a target row t,
  with s = <p, t>, the reference subtracts from p its projection s t, normalizes the difference
  neg = p - s t by max(|neg|, eps), and takes max(margin + <p, neg / max(|neg|, eps)> - s, 0); the
  result is the mean over the rows. The kernel never forms neg: it takes the three row sums
  s = <p, t>, pp = <p, p>, tt = <t, t>, uses |neg|^2 = pp - 2 s s + s s tt (clamped at zero) and
  <p, neg> = pp - s s, adds the row losses in 32 blocks of 4096 rows into two partial sums, and a
  last host step adds the two and divides by the row count.

  Over the extended reals the two agree when every entry is a real number, which the precondition
  states: then |neg|^2 expands as the kernel says and is nonnegative, so the clamp is the identity;
  the common divisor max(|neg|, eps) is a positive real, so it leaves the sum <p, neg / .> as
  <p, neg> / . ; and sums of extended reals may be regrouped freely. The pieces:
    Spec         both programs as formulas            RowAlgebra   the per-row identity over the reals
    BlockSums    the block-wise sum is the row sum    RefValue     the reference's operations are its formula
    FiniteInputs the precondition gives real entries  KernelCases, KernelAccum, KernelRun, KernelBlock,
    KernelBlocks, KernelValue   what the kernel's grid leaves in its result, point by point.
  The idealization rewrote nothing, so that claim is trivial; the three frames are the programs' runs.
-/
import proofs.«166818_j77464030151303_2_alg».proof.Defs
import proofs.«166818_j77464030151303_2_alg».proof.Proof.Gen.Kernel
import proofs.«166818_j77464030151303_2_alg».proof.Proof.Gen.Kernel.Skeleton
import proofs.«166818_j77464030151303_2_alg».proof.Proof.Gen.Kernel.Launch
import proofs.«166818_j77464030151303_2_alg».proof.Proof.Gen.Kernel.Points
import proofs.«166818_j77464030151303_2_alg».proof.Proof.Gen.Kernel.Frame
import proofs.«166818_j77464030151303_2_alg».proof.Proof.Gen.KernelIdeal
import proofs.«166818_j77464030151303_2_alg».proof.Proof.Gen.KernelIdeal.Skeleton
import proofs.«166818_j77464030151303_2_alg».proof.Proof.Gen.KernelIdeal.Launch
import proofs.«166818_j77464030151303_2_alg».proof.Proof.Gen.KernelIdeal.Points
import proofs.«166818_j77464030151303_2_alg».proof.Proof.Gen.KernelIdeal.Frame
import proofs.«166818_j77464030151303_2_alg».proof.Proof.Gen.ReferenceIdeal
import proofs.«166818_j77464030151303_2_alg».proof.Proof.Gen.Pre_finite_inputs
import proofs.«166818_j77464030151303_2_alg».proof.Proof.Gen.ReferenceIdeal.Run
import proofs.«166818_j77464030151303_2_alg».proof.Proof.Gen.ReferenceIdeal.Read
import proofs.«166818_j77464030151303_2_alg».proof.Proof.KernelValue
import proofs.«166818_j77464030151303_2_alg».proof.Proof.BlockSums
import proofs.«166818_j77464030151303_2_alg».proof.Proof.RowAlgebra
import proofs.«166818_j77464030151303_2_alg».proof.Proof.RefValue
import proofs.«166818_j77464030151303_2_alg».proof.Proof.FiniteInputs
import Idealize.ShloMosaic.Adequacy
import Idealize.ShloMosaic.Init

noncomputable section

namespace Cert.Proof

open Idealize.ShloMosaic Idealize.SL.Sem TripletLoss

/-- For arrays of real numbers the kernel's block-wise mean is the reference's mean: the blocks regroup
    into one sum over the rows, and row by row the two losses are one real number. -/
theorem mean_eq (P T : Arr) (hP : ∀ j, ∃ r : ℝ, P j = (r : EReal)) (hT : ∀ j, ∃ r : ℝ, T j = (r : EReal)) :
    kernelMean P T = refMean P T := by
  rw [kernelMean_eq, refMean]
  refine congrArg (fun x => Ideal.div (zeroC + x) countC) (Finset.sum_congr rfl fun i _ => ?_)
  exact (refRowLoss_eq_kernelRowLoss' (rowOf P i) (rowOf T i) (fun k => hP _) (fun k => hT _)).symm

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at one extended real: the kernel at its block-wise mean, the reference at its mean,
    of arrays that agree and whose entries are real. -/
theorem algebraic : Cert.algebraic_KernelIdeal_ReferenceIdeal := by
  intro m ρ m' ρ' hpre hagree
  refine ⟨fun c _ => kernelMean (Cert.KernelIdeal.Result.preds m c) (Cert.KernelIdeal.Result.targets m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq, (hagree c).1, (hagree c).2.1]
  obtain ⟨hT, hP⟩ := Cert.KernelIdeal.Finite.real_of_pre m hpre c
  funext _
  exact (mean_eq _ _ hP hT).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
